-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x128, .f32⟩
  | .local _ .vmem, ⟨6, _⟩ => ⟨S128x128, .f32⟩
  | .local _ .vmem, ⟨7, _⟩ => ⟨S200x128, .f32⟩
  | .local _ .vmem, ⟨8, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S128x128_S128x128_0_0 : ∀ a, (![0, 0] : Fin 2 → Nat) a + S128x128.size a ≤ S128x128.size a
  h_S128x128 : 0 < S128x128.numel
  inb_S200x128_S200x128_0_0 : ∀ a, (![0, 0] : Fin 2 → Nat) a + S200x128.size a ≤ S200x128.size a
  h_S200x128 : 0 < S200x128.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Assoc.lean ====
/-
  The two orders of the layer's arithmetic, as functions of the five argument arrays, and the law that joins them.

  With x : [10000,128], L, U : [10000,10000], Wi, Ws : [128,128], entry (r, c) of the layer's output is
      max ( (L·x·Wi)(r,c) + (U·x·Ws)(r,c) , 0 ).
  `aggThenMix` brackets each triple product as (L·x)·W: first the sum over the 10000 neighbours j, then the sum
  over the 128 features k.  `mixThenAgg` brackets it as L·(x·W): first the features, then the neighbours.
  On the extended reals a product does not distribute over a sum when an infinity meets a term of the other sign,
  so the two brackets agree only where the entries are real numbers: there both are the double sum
  Σ_j Σ_k L(r,j)·x(j,k)·W(k,c), by distributivity and exchanging the two finite sums (`sum_mul_assoc`).
-/
import Idealize.ShloMosaic.PureOps.Ideal
import Idealize.ShloMosaic.Lib.ValueIdx

noncomputable section

namespace Cert.TwoHop

open Idealize.ShloMosaic Idealize.ShloMosaic.ValueIdx

/-- The node-feature shape, the neighbourhood shape and the weight shape. -/
abbrev SX : Shape := ⟨2, ![10000, 128]⟩
abbrev SN : Shape := ⟨2, ![10000, 10000]⟩
abbrev SW : Shape := ⟨2, ![128, 128]⟩

/-- Entry (r, c) of (A·x)·W: the neighbours summed first, then the features. -/
def aggMix (x : SX.Idx → EReal) (A : SN.Idx → EReal) (W : SW.Idx → EReal) (r : Fin 10000) (c : Fin 128) : EReal :=
  ∑ k : Fin 128, (∑ j : Fin 10000, A (ix2 r j) * x (ix2 j k)) * W (ix2 k c)

/-- Entry (r, c) of A·(x·W): the features summed first, then the neighbours. -/
def mixAgg (x : SX.Idx → EReal) (A : SN.Idx → EReal) (W : SW.Idx → EReal) (r : Fin 10000) (c : Fin 128) : EReal :=
  ∑ j : Fin 10000, A (ix2 r j) * ∑ k : Fin 128, x (ix2 j k) * W (ix2 k c)

/-- The layer with each triple product bracketed (A·x)·W. -/
def aggThenMix (x : SX.Idx → EReal) (L U : SN.Idx → EReal) (Wi Ws : SW.Idx → EReal) : SX.Idx → EReal :=
  fun i => max (aggMix x L Wi (i 0) (i 1) + aggMix x U Ws (i 0) (i 1)) 0

/-- The layer with each triple product bracketed A·(x·W). -/
def mixThenAgg (x : SX.Idx → EReal) (L U : SN.Idx → EReal) (Wi Ws : SW.Idx → EReal) : SX.Idx → EReal :=
  fun i => max (mixAgg x L Wi (i 0) (i 1) + mixAgg x U Ws (i 0) (i 1)) 0

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product on REAL entries, read in the extended reals: both brackets are the double sum. -/
theorem sum_mul_assoc {J K : Type*} [Fintype J] [Fintype K] (a : J → ℝ) (b : J → K → ℝ) (w : K → ℝ) :
    ∑ k, (∑ j, (a j : EReal) * (b j k : EReal)) * (w k : EReal) = ∑ j, (a j : EReal) * ∑ k, (b j k : EReal) * (w k : EReal) := by
  simp only [← EReal.coe_mul, ← coe_sum]
  refine congrArg _ ?_
  simp only [Finset.sum_mul, Finset.mul_sum]
  rw [Finset.sum_comm]
  exact Finset.sum_congr rfl fun j _ => Finset.sum_congr rfl fun k _ => mul_assoc _ _ _

/-- An array all of whose entries are real numbers. -/
def AllReal {S : Shape} (a : S.Idx → EReal) : Prop := ∀ i, ∃ r : ℝ, a i = r

/-- On real entries the two brackets of one triple product agree. -/
theorem aggMix_eq_mixAgg (x : SX.Idx → EReal) (A : SN.Idx → EReal) (W : SW.Idx → EReal)
    (hx : AllReal x) (hA : AllReal A) (hW : AllReal W) (r : Fin 10000) (c : Fin 128) :
    aggMix x A W r c = mixAgg x A W r c := by
  choose x' hx' using hx
  choose A' hA' using hA
  choose W' hW' using hW
  unfold aggMix mixAgg
  simp only [hx', hA', hW']
  exact sum_mul_assoc (fun j => A' (ix2 r j)) (fun j k => x' (ix2 j k)) (fun k => W' (ix2 k c))

/-- So on real entries the layer is the same function in either bracketing. -/
theorem aggThenMix_eq_mixThenAgg (x : SX.Idx → EReal) (L U : SN.Idx → EReal) (Wi Ws : SW.Idx → EReal)
    (hx : AllReal x) (hL : AllReal L) (hU : AllReal U) (hWi : AllReal Wi) (hWs : AllReal Ws) :
    aggThenMix x L U Wi Ws = mixThenAgg x L U Wi Ws := by
  funext i
  exact congrArg (fun z => max z 0)
    (congrArg₂ (· + ·) (aggMix_eq_mixAgg x L Wi hx hL hWi (i 0) (i 1)) (aggMix_eq_mixAgg x U Ws hx hU hWs (i 0) (i 1)))

end Cert.TwoHop

end
-- ==== Proof.Finite.lean ====
/-
  From the precondition to real entries.

  The precondition is the conjunction, over the five argument arrays, of "every entry's absolute value is below +inf".
  On the extended reals |a| = max a (-a), and it is below the top element exactly when a is neither infinity, that is,
  when a is a real number.  Each conjunct is a reduction by `and` of the entrywise comparisons into one bit, so the bit
  being one gives the comparison at every entry.
-/
import proofs.«139519_g78941498900640_cont_9to1_m_670_15_alg».proof.Pre_finite_inputs
import proofs.«139519_g78941498900640_cont_9to1_m_670_15_alg».proof.Proof.Assoc
import Idealize.ShloMosaic.PureOps.Ideal.Laws
import Idealize.ShloMosaic.Lib.ReduceAll
import Idealize.ShloMosaic.Lib.Pipeline.Value
import Idealize.ShloMosaic.Lib.ValueIdx

noncomputable section

namespace Cert.TwoHop.Finite

open Cert.TwoHop
open Idealize.ShloMosaic Idealize.ShloMosaic.ValueIdx

/-- The bit pattern of +inf denotes the top element of the extended reals. -/
theorem ofBits_inf : Ideal.ofBits .f32 0x7F800000#32 = ⊤ := by simp [Ideal.ofBits, Ideal.ieee]

/-- An extended real whose absolute value is below the top element is a real number. -/
theorem real_of_abs_lt_top (a : EReal) (h : max a (-a) < ⊤) : ∃ r : ℝ, a = r := by
  induction a using EReal.rec with
  | bot => simp at h
  | top => simp at h
  | coe r => exact ⟨r, rfl⟩

/-- The scalar shape has one index. -/
instance : Subsingleton (⟨0, ![]⟩ : Shape).Idx := ⟨fun a b => funext fun d => d.elim0⟩

/-- One conjunct of the precondition: if the `and` of "|a i| < +inf" over every entry is one, every entry is real. -/
theorem allReal_of_all_lt_inf {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant (F := Ideal) ⟨0, ![]⟩ .f32 0x7F800000#32)))
          (constantI ⟨0, ![]⟩ 1 1#1) hr hu ix0 = 1#1) :
    AllReal a := by
  intro i
  have h := Host.reduce_andi_all _ _ hr hu ix0 e i
  have hb' : broadcastInDim s ![] hb (constant (F := Ideal) ⟨0, ![]⟩ .f32 0x7F800000#32) i = Ideal.ofBits .f32 0x7F800000#32 :=
    broadcastInDim_apply _ hb _ i ix0 (fun a => a.elim0)
  have h2 : Ideal.cmp .olt (max (a i) (-(a i))) (Ideal.ofBits .f32 0x7F800000#32) = 1#1 := by
    rw [← hb']; exact h
  rw [ofBits_inf] at h2
  have h3 : max (a i) (-(a i)) < ⊤ := by
    by_contra hn
    simp [Ideal.cmp, hn] at h2
  exact real_of_abs_lt_top _ h3

/-- The precondition gives real entries in all five argument arrays. -/
theorem allReal_of_pre [Cert.Pre_finite_inputs.Facts] (a0 : FVec Ideal Cert.Pre_finite_inputs.S10000x128 .f32)
    (a1 a2 : FVec Ideal Cert.Pre_finite_inputs.S10000x10000 .f32) (a3 a4 : FVec Ideal Cert.Pre_finite_inputs.S128x128 .f32)
    (h : Cert.Pre_finite_inputs.fn (F := Ideal) a0 a1 a2 a3 a4 = fun _ => 1#1) :
    AllReal a0 ∧ AllReal a1 ∧ AllReal a2 ∧ AllReal a3 ∧ AllReal a4 := by
  have h' := congrFun h ix0
  dsimp only [Cert.Pre_finite_inputs.fn, Cert.Pre_finite_inputs.fn_part1] at h'
  obtain ⟨h18, h22⟩ := IntOp.andi_eq_one.1 h'
  obtain ⟨h13, h17⟩ := IntOp.andi_eq_one.1 h18
  obtain ⟨h8, h12⟩ := IntOp.andi_eq_one.1 h13
  obtain ⟨h3, h7⟩ := IntOp.andi_eq_one.1 h8
  exact ⟨allReal_of_all_lt_inf a0 _ _ _ h3, allReal_of_all_lt_inf a1 _ _ _ h7, allReal_of_all_lt_inf a2 _ _ _ h12,
    allReal_of_all_lt_inf a3 _ _ _ h17, allReal_of_all_lt_inf a4 _ _ _ h22⟩

end Cert.TwoHop.Finite

end
-- ==== Proof.RefValue.lean ====
/-
  The reference's result, read index by index, is `mixThenAgg` of its five arguments.

  The reference computes x·Wi and x·Ws (contracting the 128 features), multiplies them on the left by L and U
  (contracting the 10000 neighbours), adds the two, and takes the maximum with a broadcast zero.  Each
  `dot_general` at an index is the sum over its one contracted axis of the operands' products; the operand indices
  are (row of the output, k) and (k, column of the output).
-/
import proofs.«139519_g78941498900640_cont_9to1_m_670_15_alg».proof.Proof.Gen.ReferenceIdeal.Read
import proofs.«139519_g78941498900640_cont_9to1_m_670_15_alg».proof.Proof.Assoc

noncomputable section

namespace Cert.TwoHop.Ref

open Cert.ReferenceIdeal Cert.ReferenceIdeal.Read Cert.TwoHop
open Idealize.ShloMosaic Idealize.ShloMosaic.ValueIdx

/-- The left operand's index of the outer products: (row, j). -/
theorem lidx_outer (r : Fin 10000) (c : Fin 128) (j : Fin 10000) : lidx_main_v1 (ix2 r c) j = ix2 r j :=
  funext fun a => Fin.ext (by match a with | ⟨0, _⟩ => rfl | ⟨1, _⟩ => rfl)

/-- The right operand's index of the outer products: (j, column). -/
theorem ridx_outer (r : Fin 10000) (c : Fin 128) (j : Fin 10000) : ridx_main_v1 (ix2 r c) j = ix2 j c :=
  funext fun a => Fin.ext (by match a with | ⟨0, _⟩ => rfl | ⟨1, _⟩ => rfl)

/-- The left operand's index of the inner products: (row, k). -/
theorem lidx_inner (r : Fin 10000) (c : Fin 128) (k : Fin 128) : lidx_main_v0 (ix2 r c) k = ix2 r k :=
  funext fun a => Fin.ext (by match a with | ⟨0, _⟩ => rfl | ⟨1, _⟩ => rfl)

/-- The right operand's index of the inner products: (k, column). -/
theorem ridx_inner (r : Fin 10000) (c : Fin 128) (k : Fin 128) : ridx_main_v0 (ix2 r c) k = ix2 k c :=
  funext fun a => Fin.ext (by match a with | ⟨0, _⟩ => rfl | ⟨1, _⟩ => rfl)

/-- A·(x·W) as the reference spells it (the first pair of products), at entry (r, c). -/
theorem outer1_apply (x : SX.Idx → EReal) (A : SN.Idx → EReal) (W : SW.Idx → EReal) (r : Fin 10000) (c : Fin 128) :
    val_main_v1 (F := Ideal) x A W (ix2 r c) = mixAgg x A W r c := by
  rw [val_main_v1_apply]
  unfold mixAgg
  refine Finset.sum_congr rfl fun j _ => ?_
  rw [val_main_v0_apply, lidx_outer, ridx_outer]
  refine congrArg (A (ix2 r j) * ·) (Finset.sum_congr rfl fun k _ => ?_)
  rw [lidx_inner, ridx_inner]

/-- The same for the second pair of products. -/
theorem outer2_apply (x : SX.Idx → EReal) (A : SN.Idx → EReal) (W : SW.Idx → EReal) (r : Fin 10000) (c : Fin 128) :
    val_main_v3 (F := Ideal) x A W (ix2 r c) = mixAgg x A W r c := by
  rw [val_main_v3_apply]
  unfold mixAgg
  refine Finset.sum_congr rfl fun j _ => ?_
  rw [val_main_v2_apply]
  show A (lidx_main_v1 (ix2 r c) j) * ∑ k : Fin 128, x (lidx_main_v0 (ridx_main_v1 (ix2 r c) j) k) * W (ridx_main_v0 (ridx_main_v1 (ix2 r c) j) k) = _
  rw [lidx_outer, ridx_outer]
  refine congrArg (A (ix2 r j) * ·) (Finset.sum_congr rfl fun k _ => ?_)
  rw [lidx_inner, ridx_inner]

/-- The reference's result is the layer bracketed A·(x·W). -/
theorem result_eq (x : SX.Idx → EReal) (L U : SN.Idx → EReal) (Wi Ws : SW.Idx → EReal) :
    val_main_v5 (F := Ideal) x L U Wi Ws = mixThenAgg x L U Wi Ws := by
  funext i
  obtain ⟨r, c, rfl⟩ : ∃ (r : Fin 10000) (c : Fin 128), i = ix2 r c := ⟨i 0, i 1, eq_ix2 i⟩
  rw [val_main_v5_apply, val_main_v4_apply, outer1_apply, outer2_apply, val_main_call0_v0_apply, val_main_call0_cst_apply]
  show max (mixAgg x L Wi r c + mixAgg x U Ws r c) (Ideal.ofBits .f32 0x00000000#32) = _
  rw [Ideal.ofBits_zero_f32]
  rfl

end Cert.TwoHop.Ref

end
-- ==== Proof.Payload.lean ====
/-
  The kernel body's arithmetic, read at one entry of its output block.

  The body loads x whole, a stripe of 200 rows of L and of U, and the two weight matrices; it multiplies each stripe by x
  (contracting the 10000 neighbours), each product by its weight matrix (contracting the 128 features), adds the two and
  takes the maximum with zero.  A change of float format is the identity on the extended reals and a matrix product into a
  zero accumulator is the plain sum over the contracted axis, so entry (p, q) of the block is
      max ( Σ_k (Σ_j l(p,j)·x(j,k))·wi(k,q) + Σ_k (Σ_j u(p,j)·x(j,k))·ws(k,q) , 0 ).
-/
import proofs.«139519_g78941498900640_cont_9to1_m_670_15_alg».proof.Proof.Gen.KernelIdeal.Skeleton
import proofs.«139519_g78941498900640_cont_9to1_m_670_15_alg».proof.Proof.Assoc
import Idealize.ShloMosaic.PureOps.Ideal.Laws
import Idealize.ShloMosaic.Lib.ValueIdx

noncomputable section

namespace Cert.TwoHop.Body

open Cert.KernelIdeal Cert.KernelIdeal.Gen Cert.TwoHop
open Idealize.ShloMosaic Idealize.ShloMosaic.ValueIdx

/-! ## The stripe times x: [200,10000] · [10000,128] -/

theorem big_lhs0 (p : Fin 200) (q : Fin 128) (z : dot_S200x10000_S10000x128_S200x128_1_0_0_1_n_n.contr.Idx) :
    (dot_S200x10000_S10000x128_S200x128_1_0_0_1_n_n.lhsIdx (ix2 p q) z 0).val = p.val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem big_lhs1 (p : Fin 200) (q : Fin 128) (z : dot_S200x10000_S10000x128_S200x128_1_0_0_1_n_n.contr.Idx) :
    (dot_S200x10000_S10000x128_S200x128_1_0_0_1_n_n.lhsIdx (ix2 p q) z 1).val = (z ⟨0, by decide⟩).val :=
  dot_S200x10000_S10000x128_S200x128_1_0_0_1_n_n.lhsIdx_val_of_single rfl (ix2 p q) z
theorem big_rhs0 (p : Fin 200) (q : Fin 128) (z : dot_S200x10000_S10000x128_S200x128_1_0_0_1_n_n.contr.Idx) :
    (dot_S200x10000_S10000x128_S200x128_1_0_0_1_n_n.rhsIdx (ix2 p q) z 0).val = (z ⟨0, by decide⟩).val :=
  dot_S200x10000_S10000x128_S200x128_1_0_0_1_n_n.rhsIdx_val_of_single rfl (ix2 p q) z
theorem big_rhs1 (p : Fin 200) (q : Fin 128) (z : dot_S200x10000_S10000x128_S200x128_1_0_0_1_n_n.contr.Idx) :
    (dot_S200x10000_S10000x128_S200x128_1_0_0_1_n_n.rhsIdx (ix2 p q) z 1).val = q.val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Entry (p, q) of a stripe times x, into a zero accumulator: the sum over the 10000 neighbours. -/
theorem stripe_mul_apply {φ₁ φ₂ : FTy} (l : FVec Ideal S200x10000 φ₁) (r : FVec Ideal S10000x128 φ₂) (p : Fin 200) (q : Fin 128) :
    matmul dot_S200x10000_S10000x128_S200x128_1_0_0_1_n_n none l r (constant S200x128 .f32 0x00000000#32) (ix2 p q)
      = ∑ j : Fin 10000, l (ix2 p j) * r (ix2 j q) := by
  simp only [matmul]
  rw [Ideal.matmul_constant_zero_apply, ← Equiv.sum_comp (contrEquiv1 dot_S200x10000_S10000x128_S200x128_1_0_0_1_n_n 10000 rfl rfl).symm]
  refine Finset.sum_congr rfl fun j _ => ?_
  have hj := contrEquiv1_symm_val dot_S200x10000_S10000x128_S200x128_1_0_0_1_n_n 10000 rfl rfl j
  have el : dot_S200x10000_S10000x128_S200x128_1_0_0_1_n_n.lhsIdx (ix2 p q) ((contrEquiv1 dot_S200x10000_S10000x128_S200x128_1_0_0_1_n_n 10000 rfl rfl).symm j) = ix2 p j := funext fun a => Fin.ext (by
    match a with
    | ⟨0, _⟩ => exact big_lhs0 _ _ _
    | ⟨1, _⟩ => exact (big_lhs1 _ _ _).trans hj)
  have er : dot_S200x10000_S10000x128_S200x128_1_0_0_1_n_n.rhsIdx (ix2 p q) ((contrEquiv1 dot_S200x10000_S10000x128_S200x128_1_0_0_1_n_n 10000 rfl rfl).symm j) = ix2 j q := funext fun a => Fin.ext (by
    match a with
    | ⟨0, _⟩ => exact (big_rhs0 _ _ _).trans hj
    | ⟨1, _⟩ => exact big_rhs1 _ _ _)
  rw [el, er]

/-! ## The aggregated stripe times a weight matrix: [200,128] · [128,128] -/

theorem small_lhs0 (p : Fin 200) (q : Fin 128) (z : dot_S200x128_S128x128_S200x128_1_0_0_1_n_n.contr.Idx) :
    (dot_S200x128_S128x128_S200x128_1_0_0_1_n_n.lhsIdx (ix2 p q) z 0).val = p.val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem small_lhs1 (p : Fin 200) (q : Fin 128) (z : dot_S200x128_S128x128_S200x128_1_0_0_1_n_n.contr.Idx) :
    (dot_S200x128_S128x128_S200x128_1_0_0_1_n_n.lhsIdx (ix2 p q) z 1).val = (z ⟨0, by decide⟩).val :=
  dot_S200x128_S128x128_S200x128_1_0_0_1_n_n.lhsIdx_val_of_single rfl (ix2 p q) z
theorem small_rhs0 (p : Fin 200) (q : Fin 128) (z : dot_S200x128_S128x128_S200x128_1_0_0_1_n_n.contr.Idx) :
    (dot_S200x128_S128x128_S200x128_1_0_0_1_n_n.rhsIdx (ix2 p q) z 0).val = (z ⟨0, by decide⟩).val :=
  dot_S200x128_S128x128_S200x128_1_0_0_1_n_n.rhsIdx_val_of_single rfl (ix2 p q) z
theorem small_rhs1 (p : Fin 200) (q : Fin 128) (z : dot_S200x128_S128x128_S200x128_1_0_0_1_n_n.contr.Idx) :
    (dot_S200x128_S128x128_S200x128_1_0_0_1_n_n.rhsIdx (ix2 p q) z 1).val = q.val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- Entry (p, q) of an aggregated stripe times a weight matrix, into a zero accumulator: the sum over the 128 features. -/
theorem mix_mul_apply {φ₁ φ₂ : FTy} (l : FVec Ideal S200x128 φ₁) (r : FVec Ideal S128x128 φ₂) (p : Fin 200) (q : Fin 128) :
    matmul dot_S200x128_S128x128_S200x128_1_0_0_1_n_n none l r (constant S200x128 .f32 0x00000000#32) (ix2 p q)
      = ∑ k : Fin 128, l (ix2 p k) * r (ix2 k q) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun a => Fin.ext (by
    match a with
    | ⟨0, _⟩ => exact small_lhs0 _ _ _
    | ⟨1, _⟩ => exact (small_lhs1 _ _ _).trans hk)
  have er : dot_S200x128_S128x128_S200x128_1_0_0_1_n_n.rhsIdx (ix2 p q) ((contrEquiv1 dot_S200x128_S128x128_S200x128_1_0_0_1_n_n 128 rfl rfl).symm k) = ix2 k q := funext fun a => Fin.ext (by
    match a with
    | ⟨0, _⟩ => exact (small_rhs0 _ _ _).trans hk
    | ⟨1, _⟩ => exact small_rhs1 _ _ _)
  rw [el, er]

/-! ## The whole body -/

/-- Entry (p, q) of the block the body stores, over its five loaded blocks. -/
theorem pay_apply (v0 : Vec Ideal S10000x128 .f32) (v2 v4 : Vec Ideal S200x10000 .f32) (v8 v10 : Vec Ideal S128x128 .f32)
    (p : Fin 200) (q : Fin 128) :
    k0_pay1 v0 v2 v4 v8 v10 (ix2 p q)
      = max ((∑ k : Fin 128, (∑ j : Fin 10000, v2 (ix2 p j) * v0 (ix2 j k)) * v8 (ix2 k q))
           + (∑ k : Fin 128, (∑ j : Fin 10000, v4 (ix2 p j) * v0 (ix2 j k)) * v10 (ix2 k q))) 0 := by
  unfold k0_pay1
  rw [maximumf_apply, addf_apply, mix_mul_apply, mix_mul_apply, broadcast_apply]
  simp only [stripe_mul_apply, truncf_apply]
  show max _ (Ideal.ofBits .f32 0x00000000#32) = _
  rw [Ideal.ofBits_zero_f32]

/-- The same against the layer's specification: when the body's blocks are x, rows `r` of L and U seen as rows `p` of the
    stripes, and the two weight matrices, entry (p, q) of the stored block is entry (r, q) of the layer bracketed (A·x)·W. -/
theorem pay_eq_layer (x0 : Vec Ideal S10000x128 .f32) (x1 x2 : Vec Ideal S200x10000 .f32) (x3 x4 : Vec Ideal S128x128 .f32)
    (X : SX.Idx → EReal) (L U : SN.Idx → EReal) (Wi Ws : SW.Idx → EReal) (p : Fin 200) (q : Fin 128) (r : Fin 10000)
    (h0 : ∀ j k, x0 (ix2 j k) = X (ix2 j k)) (h1 : ∀ j, x1 (ix2 p j) = L (ix2 r j)) (h2 : ∀ j, x2 (ix2 p j) = U (ix2 r j))
    (h3 : ∀ k, x3 (ix2 k q) = Wi (ix2 k q)) (h4 : ∀ k, x4 (ix2 k q) = Ws (ix2 k q)) :
    k0_pay1 x0 x1 x2 x3 x4 (ix2 p q) = aggThenMix X L U Wi Ws (ix2 r q) := by
  rw [pay_apply]
  simp only [h0, h1, h2, h3, h4]
  rfl

end Cert.TwoHop.Body

end
-- ==== Proof.KernelValue.lean ====
/-
  The kernel's result array, as one function of the argument arrays.

  The grid has 50 points; point t reads x whole, rows 200·t … 200·t + 199 of L and of U, the two weight matrices whole,
  and writes rows 200·t … 200·t + 199 of the result.  Entry (p, q) of the block written at point t is entry
  (200·t + p, q) of the layer bracketed (A·x)·W, and the 50 row stripes tile the 10000 rows, so after the run the result
  array is that function of the argument arrays.
-/
import proofs.«139519_g78941498900640_cont_9to1_m_670_15_alg».proof.Proof.Gen.KernelIdeal.Value
import proofs.«139519_g78941498900640_cont_9to1_m_670_15_alg».proof.Proof.Payload
import Idealize.ShloMosaic.Lib.Pipeline.Value
import Idealize.ShloMosaic.Lib.ValueIdx

noncomputable section

namespace Cert.TwoHop.Kern

open Cert.KernelIdeal Cert.KernelIdeal.Gen Cert.KernelIdeal.Value Cert.TwoHop
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer, bracketed (A·x)·W, of the argument arrays as launched on core `c`. -/
abbrev layer (c : Dev nD) : S10000x128.Idx → EReal :=
  aggThenMix (m ((c : Thread nD τ).loc main_arg0)) (m ((c : Thread nD τ).loc main_arg1)) (m ((c : Thread nD τ).loc main_arg2))
    (m ((c : Thread nD τ).loc main_arg3)) (m ((c : Thread nD τ).loc main_arg4))

/-- The block indices over the grid: x and the weights stay at block (0, 0); the stripes of L and U and the output stripe
    are at block (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- x's block at any point is x. -/
theorem iblk0_apply (c : Dev nD) (t : Fin cfg0.N) (j : Fin 10000) (k : Fin 128) :
    (iblk m c 0 t : Vec Ideal S10000x128 .f32) (ix2 j k) = (m ((c : Thread nD τ).loc main_arg0) : S10000x128.Idx → EReal) (ix2 j k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 10000 + 1 * j.val = j.val; rw [e0]; omega
  | ⟨1, _⟩ => show win0_0.index t 1 * 128 + 1 * k.val = k.val; rw [e1]; omega

/-- Row p of L's stripe at point t is row 200·t + p of L. -/
theorem iblk1_apply (c : Dev nD) (t : Fin cfg0.N) (p : Fin 200) (j : Fin 10000) (r : Fin 10000) (hr : r.val = t.val * 200 + p.val) :
    (iblk m c 1 t : Vec Ideal S200x10000 .f32) (ix2 p j) = (m ((c : Thread nD τ).loc main_arg1) : S10000x10000.Idx → EReal) (ix2 r j) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 200 + 1 * p.val = r.val; rw [e0, hr]; omega
  | ⟨1, _⟩ => show win0_1.index t 1 * 10000 + 1 * j.val = j.val; rw [e1]; omega

/-- Row p of U's stripe at point t is row 200·t + p of U. -/
theorem iblk2_apply (c : Dev nD) (t : Fin cfg0.N) (p : Fin 200) (j : Fin 10000) (r : Fin 10000) (hr : r.val = t.val * 200 + p.val) :
    (iblk m c 2 t : Vec Ideal S200x10000 .f32) (ix2 p j) = (m ((c : Thread nD τ).loc main_arg2) : S10000x10000.Idx → EReal) (ix2 r j) := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 200 + 1 * p.val = r.val; rw [e0, hr]; omega
  | ⟨1, _⟩ => show win0_2.index t 1 * 10000 + 1 * j.val = j.val; rw [e1]; omega

/-- The first weight matrix's block at any point is the matrix. -/
theorem iblk3_apply (c : Dev nD) (t : Fin cfg0.N) (k q : Fin 128) :
    (iblk m c 3 t : Vec Ideal S128x128 .f32) (ix2 k q) = (m ((c : Thread nD τ).loc main_arg3) : S128x128.Idx → EReal) (ix2 k q) := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The second weight matrix's block at any point is the matrix. -/
theorem iblk4_apply (c : Dev nD) (t : Fin cfg0.N) (k q : Fin 128) :
    (iblk m c 4 t : Vec Ideal S128x128 .f32) (ix2 k q) = (m ((c : Thread nD τ).loc main_arg4) : S128x128.Idx → EReal) (ix2 k q) := by
  obtain ⟨-, -, -, -, -, -, -, -, e0, e1, -⟩ := idx_facts t
  unfold iblk
  rw [View.read_apply]
  show V m c main_arg4 _ = m (c.tc.loc main_arg4) _
  unfold V
  congr 1
  funext a
  apply Fin.ext
  match a with
  | ⟨0, _⟩ => show win0_4.index t 0 * 128 + 1 * k.val = k.val; rw [e0]; omega
  | ⟨1, _⟩ => show win0_4.index t 1 * 128 + 1 * q.val = q.val; rw [e1]; omega

/-- Entry (p, q) of the output block at point t sits at (200·t + p, q) of the result array. -/
theorem out_emb (t : Fin cfg0.N) (p : Fin 200) (q : Fin 128) (r : Fin 10000) (hr : r.val = t.val * 200 + p.val) :
    ((cfg0.win 5).blk t).view.emb (ix2 p q) = (ix2 r q : S10000x128.Idx) := by
  obtain ⟨-, -, -, -, -, -, -, -, -, -, e0, e1⟩ := idx_facts t
  funext a
  apply Fin.ext
  match a with
  | ⟨0, _⟩ => show win0_5.index t 0 * 200 + 1 * p.val = r.val; rw [e0, hr]; omega
  | ⟨1, _⟩ => show win0_5.index t 1 * 128 + 1 * q.val = q.val; rw [e1]; omega

/-- What point t writes back is block t of the layer of the argument arrays. -/
theorem flushed_eq (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after0_5]
  unfold out0_5
  rw [View.canon_unit_zero hz]
  simp only [View.ld_unit_zero (S := S10000x128) hz, View.ld_unit_zero (S := S200x10000) hz, View.ld_unit_zero (S := S128x128) hz]
  funext y
  obtain ⟨p, q, rfl⟩ : ∃ (p : Fin 200) (q : Fin 128), y = ix2 p q := ⟨y 0, y 1, eq_ix2 y⟩
  have hlt : t.val * 200 + p.val < 10000 := by
    have ht : t.val < 50 := t.isLt
    have hp : p.val < 200 := p.isLt
    omega
  show k0_pay1 (iblk m c 0 t) (iblk m c 1 t) (iblk m c 2 t) (iblk m c 3 t) (iblk m c 4 t) (ix2 p q)
      = layer m c (((cfg0.win 5).blk t).view.emb (ix2 p q))
  rw [out_emb t p q ⟨t.val * 200 + p.val, hlt⟩ rfl]
  exact Body.pay_eq_layer (iblk m c 0 t) (iblk m c 1 t) (iblk m c 2 t) (iblk m c 3 t) (iblk m c 4 t) _ _ _ _ _ p q
    ⟨t.val * 200 + p.val, hlt⟩ (fun j k => iblk0_apply m c t j k) (fun j => iblk1_apply m c t p j _ rfl)
    (fun j => iblk2_apply m c t p j _ rfl) (fun k => iblk3_apply m c t k q) (fun k => iblk4_apply m c t k q)

/-- An index of the result array is in point t's block iff each coordinate is in the block's range on its axis. -/
theorem mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v0).slice (win0_5.rect t)).set ↔ _
  rw [View.set_slice_whole, Rect.mem_set_unit]
  exact Iff.rfl

/-- The 50 row stripes tile the result array: row r is in the stripe of point r / 200. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := rfl
  refine ⟨⟨(i 0).val / 200, by rw [hN]; omega⟩, flush0_5 _, ?_⟩
  rw [mem_blk]
  obtain ⟨-, -, -, -, -, -, -, -, -, -, e0, e1⟩ := idx_facts ⟨(i 0).val / 200, by rw [hN]; omega⟩
  intro a
  match a with
  | ⟨0, _⟩ =>
    show win0_5.index _ (0 : Fin 2) * 200 ≤ (i 0).val ∧ (i 0).val < win0_5.index _ (0 : Fin 2) * 200 + 200
    rw [e0]
    show (i 0).val / 200 * 200 ≤ (i 0).val ∧ (i 0).val < (i 0).val / 200 * 200 + 200
    omega
  | ⟨1, _⟩ =>
    show win0_5.index _ (1 : Fin 2) * 128 ≤ (i 1).val ∧ (i 1).val < win0_5.index _ (1 : Fin 2) * 128 + 128
    rw [e1]
    omega

/-- The result array after the run is the layer of the argument arrays. -/
theorem final (c : Dev nD) : (dats m 0 c).arrAt 5 cfg0.N = layer m c :=
  (dats m 0 c).arrAt_eq_of_cover 5 (layer m c) (fun t _ => flushed_eq m c t) cover

/-- The kernel's run, read: the result at the layer bracketed (A·x)·W, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.TwoHop.Kern

end
-- ==== Proof.Claims.lean ====
/-
  The claims.

  The kernel's result array is the layer bracketed (A·x)·W of its argument arrays; the reference's is the layer bracketed
  A·(x·W) of its own, which agree with the kernel's.  The precondition makes every entry of the five arrays a real number,
  and on real entries the two brackets are one function (associativity of the triple product, by distributivity and
  exchanging the two finite sums).
-/
import proofs.«139519_g78941498900640_cont_9to1_m_670_15_alg».proof.Defs
import proofs.«139519_g78941498900640_cont_9to1_m_670_15_alg».proof.Proof.Gen.Kernel.Frame
import proofs.«139519_g78941498900640_cont_9to1_m_670_15_alg».proof.Proof.Gen.KernelIdeal.Frame
import proofs.«139519_g78941498900640_cont_9to1_m_670_15_alg».proof.Proof.Gen.ReferenceIdeal.Run
import proofs.«139519_g78941498900640_cont_9to1_m_670_15_alg».proof.Proof.Gen.ReferenceIdeal.Read
import proofs.«139519_g78941498900640_cont_9to1_m_670_15_alg».proof.Proof.Gen.Pre_finite_inputs
import proofs.«139519_g78941498900640_cont_9to1_m_670_15_alg».proof.Proof.Assoc
import proofs.«139519_g78941498900640_cont_9to1_m_670_15_alg».proof.Proof.Finite
import proofs.«139519_g78941498900640_cont_9to1_m_670_15_alg».proof.Proof.RefValue
import proofs.«139519_g78941498900640_cont_9to1_m_670_15_alg».proof.Proof.KernelValue

noncomputable section

namespace Cert.Proof.Claims

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result array: the kernel's is (L·x)·Wi + (U·x)·Ws clipped at zero, the
    reference's L·(x·Wi) + U·(x·Ws) clipped at zero, and the arrays' entries are real numbers. -/
theorem algebraic : Cert.algebraic_KernelIdeal_ReferenceIdeal := by
  intro m ρ m' ρ' hpre hagree
  refine ⟨fun c => Cert.TwoHop.Kern.layer m c, Cert.TwoHop.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.TwoHop.Ref.result_eq, (hagree c).1, (hagree c).2.1, (hagree c).2.2.1,
    (hagree c).2.2.2.1, (hagree c).2.2.2.2]
  obtain ⟨h0, h1, h2, h3, h4⟩ := Cert.TwoHop.Finite.allReal_of_pre _ _ _ _ _ (hpre c)
  exact (Cert.TwoHop.aggThenMix_eq_mixThenAgg _ _ _ _ _ h0 h1 h2 h3 h4).symm

end Cert.Proof.Claims

end
-- ==== Proof.lean ====
/-
  The certificate of one graph-convolution layer: out = max(L·x·Wi + U·x·Ws, 0) with x : [10000,128], dense
  L, U : [10000,10000] and Wi, Ws : [128,128].

  The kernel walks 50 stripes of 200 rows; at each it multiplies the stripe of L and of U by x, then by the weight
  matrix, adds and clips at zero.  The reference multiplies x by each weight matrix first and then by L and U.  On the
  extended reals the two are the same function wherever every entry is a real number, which the precondition gives.
  The pieces: `Proof/Assoc.lean` (the two bracketings and the law between them), `Proof/Finite.lean` (real entries from
  the precondition), `Proof/RefValue.lean` (the reference's result), `Proof/Payload.lean` and `Proof/KernelValue.lean`
  (the kernel's result), `Proof/Claims.lean` (the five claims).
-/
import proofs.«139519_g78941498900640_cont_9to1_m_670_15_alg».proof.Defs
import proofs.«139519_g78941498900640_cont_9to1_m_670_15_alg».proof.Proof.Gen.Kernel
import proofs.«139519_g78941498900640_cont_9to1_m_670_15_alg».proof.Proof.Gen.Kernel.Skeleton
import proofs.«139519_g78941498900640_cont_9to1_m_670_15_alg».proof.Proof.Gen.Kernel.Launch
import proofs.«139519_g78941498900640_cont_9to1_m_670_15_alg».proof.Proof.Gen.Kernel.Points
import proofs.«139519_g78941498900640_cont_9to1_m_670_15_alg».proof.Proof.Gen.Kernel.Frame
import proofs.«139519_g78941498900640_cont_9to1_m_670_15_alg».proof.Proof.Gen.KernelIdeal
import proofs.«139519_g78941498900640_cont_9to1_m_670_15_alg».proof.Proof.Gen.KernelIdeal.Skeleton
import proofs.«139519_g78941498900640_cont_9to1_m_670_15_alg».proof.Proof.Gen.KernelIdeal.Launch
import proofs.«139519_g78941498900640_cont_9to1_m_670_15_alg».proof.Proof.Gen.KernelIdeal.Points
import proofs.«139519_g78941498900640_cont_9to1_m_670_15_alg».proof.Proof.Gen.KernelIdeal.Frame
import proofs.«139519_g78941498900640_cont_9to1_m_670_15_alg».proof.Proof.Gen.ReferenceIdeal
import proofs.«139519_g78941498900640_cont_9to1_m_670_15_alg».proof.Proof.Gen.Pre_finite_inputs
import proofs.«139519_g78941498900640_cont_9to1_m_670_15_alg».proof.Proof.Gen.KernelIdeal.Value
import proofs.«139519_g78941498900640_cont_9to1_m_670_15_alg».proof.Proof.Gen.ReferenceIdeal.Run
import proofs.«139519_g78941498900640_cont_9to1_m_670_15_alg».proof.Proof.Gen.ReferenceIdeal.Read
import proofs.«139519_g78941498900640_cont_9to1_m_670_15_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
